-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S1x1024 .f32) (main_arg3 : FVec F S1x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Kernel.lean ====
abbrev S16384x1024 : Shape := ⟨2, ![16384, 1024]⟩
abbrev S1x1024 : Shape := ⟨2, ![1, 1024]⟩
abbrev S1x16384 : Shape := ⟨2, ![1, 16384]⟩
abbrev S1024x1024 : Shape := ⟨2, ![1024, 1024]⟩
abbrev S_ : Shape := ⟨0, ![]⟩
abbrev S1 : Shape := ⟨1, ![1]⟩
abbrev S1x1 : Shape := ⟨2, ![1, 1]⟩

abbrev nBuf : Space → Nat
  | .hbm => 34
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x16384, .f32⟩
  | .hbm, ⟨5, _⟩ => ⟨S1x16384, .f32⟩
  | .hbm, ⟨6, _⟩ => ⟨S_, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S1x1, .f32⟩
  | .hbm, ⟨12, _⟩ => ⟨S1x16384, .f32⟩
  | .hbm, ⟨13, _⟩ => ⟨S1x16384, .f32⟩
  | .hbm, ⟨14, _⟩ => ⟨S1x16384, .f32⟩
  | .hbm, ⟨15, _⟩ => ⟨S_, .f32⟩
  | .hbm, ⟨16, _⟩ => ⟨S1, .f32⟩
  | .hbm, ⟨17, _⟩ => ⟨S1x1, .f32⟩
  | .hbm, ⟨18, _⟩ => ⟨S1x16384, .f32⟩
  | .hbm, ⟨19, _⟩ => ⟨S1x16384, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S1x1, .f32⟩
  | .hbm, ⟨26, _⟩ => ⟨S1x16384, .f32⟩
  | .hbm, ⟨27, _⟩ => ⟨S1x16384, .f32⟩
  | .hbm, ⟨28, _⟩ => ⟨S1x16384, .f32⟩
  | .hbm, ⟨29, _⟩ => ⟨S_, .f32⟩
  | .hbm, ⟨30, _⟩ => ⟨S1, .f32⟩
  | .hbm, ⟨31, _⟩ => ⟨S1x1, .f32⟩
  | .hbm, ⟨32, _⟩ => ⟨S1x16384, .f32⟩
  | .hbm, ⟨33, _⟩ => ⟨S1x16384, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  reducesTo_S1x16384_S1_d1 : S1x16384.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x16384_0_1 : S1x1.BroadcastsInDim S1x16384 (![0, 1] : Fin 2 → Fin S1x16384.rank)
  dot_S1x1024_S1024x1024_S1x1024_1_1_0_0_n_n_wf : DotDims.WF S1x1024 S1024x1024 S1x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x16384.size a
  hwx0_4 : ∀ i : grid0.Coords, EltTy.bits .f32 = 32 ∨ (Rect.block (s := S1x16384) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x16384.size a
  hwx0_5 : ∀ i : grid0.Coords, EltTy.bits .f32 = 32 ∨ (Rect.block (s := S1x16384) S1x1024.size (cc0_transform_5 i) (hinb0_5 i)).WholeWords (EltTy.packing .f32)

variable [Facts₀]

def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1x1024 : Shape := ⟨2, ![1, 1024]⟩
abbrev S1x16384 : Shape := ⟨2, ![1, 16384]⟩
abbrev S_ : Shape := ⟨0, ![]⟩
abbrev S1 : Shape := ⟨1, ![1]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x16384, .f32⟩
  | .hbm, ⟨5, _⟩ => ⟨S1x16384, .f32⟩
  | .hbm, ⟨6, _⟩ => ⟨S_, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S1x1, .f32⟩
  | .hbm, ⟨12, _⟩ => ⟨S1x16384, .f32⟩
  | .hbm, ⟨13, _⟩ => ⟨S1x16384, .f32⟩
  | .hbm, ⟨14, _⟩ => ⟨S1x16384, .f32⟩
  | .hbm, ⟨15, _⟩ => ⟨S_, .f32⟩
  | .hbm, ⟨16, _⟩ => ⟨S1, .f32⟩
  | .hbm, ⟨17, _⟩ => ⟨S1x1, .f32⟩
  | .hbm, ⟨18, _⟩ => ⟨S1x16384, .f32⟩
  | .hbm, ⟨19, _⟩ => ⟨S1x16384, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S1x1, .f32⟩
  | .hbm, ⟨26, _⟩ => ⟨S1x16384, .f32⟩
  | .hbm, ⟨27, _⟩ => ⟨S1x16384, .f32⟩
  | .hbm, ⟨28, _⟩ => ⟨S1x16384, .f32⟩
  | .hbm, ⟨29, _⟩ => ⟨S_, .f32⟩
  | .hbm, ⟨30, _⟩ => ⟨S1, .f32⟩
  | .hbm, ⟨31, _⟩ => ⟨S1x1, .f32⟩
  | .hbm, ⟨32, _⟩ => ⟨S1x16384, .f32⟩
  | .hbm, ⟨33, _⟩ => ⟨S1x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  reducesTo_S1x16384_S1_d1 : S1x16384.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x16384_0_1 : S1x1.BroadcastsInDim S1x16384 (![0, 1] : Fin 2 → Fin S1x16384.rank)
  dot_S1x1024_S16384x1024_S1x16384_1_1_0_0_n_n_wf : DotDims.WF S1x1024 S16384x1024 S1x16384 [1] [1] [0] [0] [] []

variable [Facts₀]

def dot_S1x1024_S16384x1024_S1x16384_1_1_0_0_n_n : DotDims S1x1024 S16384x1024 S1x16384 where
  lhsContracting := [1]
  rhsContracting := [1]
  lhsNonContracting := [0]
  rhsNonContracting := [0]
  lhsBatch := []
  rhsBatch := []
  wf := dot_S1x1024_S16384x1024_S1x16384_1_1_0_0_n_n_wf

class Facts : Prop extends Facts₀ where

variable [Facts]
-- ==== Proof.RowSoftmax.lean ====
/-
  What both programs compute, as two functions of the argument arrays.

  `logits w G` is the matrix–vector product of a single weight row `w` (1 × 1024) with the rows of a feature matrix
  `G` (16384 × 1024): entry (0, s) is Σₖ w(0, k) · G(s, k), one dot product of length 1024 per row `s` of `G`.

  `softmaxRow P` is the numerically shifted softmax of a row `P` of 16384 logits: with M the maximum of the row
  (folded from −∞) and e(s) = exp (P(0, s) − M), entry (0, s) is e(s) / Σₜ e(t). It is written once, as the composition
  of host operations both programs apply to their logits, and is never unfolded: the two programs agree because they
  feed it the same row.
-/
import Idealize.ShloMosaic.PureOps
import Idealize.ShloMosaic.PureOps.Ideal
import Idealize.ShloMosaic.Lib.ValueIdx

noncomputable section

namespace Cert.RowSoftmax

open Idealize.ShloMosaic Idealize.ShloMosaic.ValueIdx

/-- A row of 16384 logits. -/
abbrev Logits : Shape := ⟨2, ![1, 16384]⟩
/-- A single weight row of length 1024. -/
abbrev Weights : Shape := ⟨2, ![1, 1024]⟩
/-- 16384 feature rows of length 1024. -/
abbrev Feats : Shape := ⟨2, ![16384, 1024]⟩
abbrev Scalar : Shape := ⟨0, ![]⟩
abbrev Single : Shape := ⟨1, ![1]⟩
abbrev Cell : Shape := ⟨2, ![1, 1]⟩

/-- The weight row against every feature row: entry (0, s) is Σₖ w(0, k) · G(s, k). -/
def logits (w : FVec Ideal Weights .f32) (G : FVec Ideal Feats .f32) : FVec Ideal Logits .f32 :=
  fun i => ∑ k : Fin 1024, w (ix2 (0 : Fin 1) k) * G (ix2 (i 1) k)

theorem logits_apply (w : FVec Ideal Weights .f32) (G : FVec Ideal Feats .f32) (z : Fin 1) (s : Fin 16384) :
    logits w G (ix2 z s) = ∑ k : Fin 1024, w (ix2 (0 : Fin 1) k) * G (ix2 s k) := rfl

variable {F : FTy → Type} [FloatOps F]

/-- The shifted softmax of a row, as the host computes it: the row's maximum M (a max-fold from −∞, then once more
    against −∞), broadcast back along the row and subtracted; the exponential e; the row sum of e (a sum from 0),
    broadcast back along the row; the quotient e / Σ e. The five hypotheses are the shape relations the operations ask
    for. -/
def softmaxRow (hred : Logits.ReducesTo [1] Single) (hsc : 0 < Scalar.numel)
    (b0 : Scalar.BroadcastsInDim Single (![] : Fin 0 → Fin Single.rank))
    (b1 : Single.BroadcastsInDim Cell (![0] : Fin 1 → Fin Cell.rank))
    (b2 : Cell.BroadcastsInDim Logits (![0, 1] : Fin 2 → Fin Logits.rank))
    (P : (⟨Logits, .f32⟩ : BufTy).Contents (Elt F)) : (⟨Logits, .f32⟩ : BufTy).Contents (Elt F) :=
  Host.divf
    (Host.exp (subf P (broadcastInDim Logits ![0, 1] b2 (broadcastInDim Cell ![0] b1
      (maximumf (broadcastInDim Single ![] b0 (constant Scalar .f32 0xFF800000#32))
        (Host.reduce FloatOps.maximumf P (constant Scalar .f32 0xFF800000#32) hred hsc))))))
    (broadcastInDim Logits ![0, 1] b2 (broadcastInDim Cell ![0] b1
      (Host.reduceAdd
        (Host.exp (subf P (broadcastInDim Logits ![0, 1] b2 (broadcastInDim Cell ![0] b1
          (maximumf (broadcastInDim Single ![] b0 (constant Scalar .f32 0xFF800000#32))
            (Host.reduce FloatOps.maximumf P (constant Scalar .f32 0xFF800000#32) hred hsc))))))
        (constant Scalar .f32 0x00000000#32) hred hsc)))

end Cert.RowSoftmax

end
-- ==== Proof.RefLogits.lean ====
/-
  The reference's two results as the shifted softmax of the logits.

  The reference forms each row of logits by one host matrix product that contracts the trailing axis of the weight row
  against the trailing axis of the feature matrix. Read at entry (0, s) that product is Σₖ w(0, k) · G(s, k): the
  function `logits`. Everything the reference does after that is the shifted softmax of the row, so each result is
  `softmaxRow (logits w G)`.
-/
import proofs.«105103_j15719580304442_2_alg».proof.Proof.Gen.ReferenceIdeal.Read
import proofs.«105103_j15719580304442_2_alg».proof.Proof.RowSoftmax

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.RowSoftmax

/-- The host product of the weight row with the feature matrix is the row of dot products: at entry (0, s) the
    contraction index k pairs w(0, k) with G(s, k). -/
theorem dot_eq_logits (w : FVec Ideal S1x1024 .f32) (G : FVec Ideal S16384x1024 .f32) :
    Host.dotGeneral dot_S1x1024_S16384x1024_S1x16384_1_1_0_0_n_n none w G = logits w G := by
  funext i
  show Read.val_main_v0 (F := Ideal) G w i = _
  rw [Read.val_main_v0_apply]
  refine Finset.sum_congr rfl fun k _ => ?_
  have el : Read.lidx_main_v0 i k = ix2 (0 : Fin 1) k := funext fun a => Fin.ext (by
    match a with
    | ⟨0, _⟩ =>
      have h0 : (i 0).val < 1 := (i 0).isLt
      show (i 0).val = 0
      omega
    | ⟨1, _⟩ => rfl)
  have er : Read.ridx_main_v0 i k = ix2 (i 1) k := funext fun a => Fin.ext (by
    match a with
    | ⟨0, _⟩ => rfl
    | ⟨1, _⟩ => rfl)
  rw [el, er]
  rfl

/-- The reference's run: both results are the shifted softmax of the logits of their own weight row and feature matrix,
    and the arguments end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12)
          = softmaxRow reducesTo_S1x16384_S1_d1 h_S_ bcast_S_S1 bcast_S1_S1x1_0 bcast_S1x1_S1x16384_0_1
              (logits (m ((c.tc : Thread nD τ).loc main_arg2)) (m ((c.tc : Thread nD τ).loc main_arg0)))
      ∧ r.2.mem ((c.tc : Thread nD τ).loc main_v23)
          = softmaxRow reducesTo_S1x16384_S1_d1 h_S_ bcast_S_S1 bcast_S1_S1x1_0 bcast_S1x1_S1x16384_0_1
              (logits (m ((c.tc : Thread nD τ).loc main_arg3)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨(h c).1.trans (congrArg (softmaxRow reducesTo_S1x16384_S1_d1 h_S_ bcast_S_S1 bcast_S1_S1x1_0 bcast_S1x1_S1x16384_0_1)
          (dot_eq_logits (m ((c.tc : Thread nD τ).loc main_arg2)) (m ((c.tc : Thread nD τ).loc main_arg0)))),
        (h c).2.1.trans (congrArg (softmaxRow reducesTo_S1x16384_S1_d1 h_S_ bcast_S_S1 bcast_S1_S1x1_0 bcast_S1x1_S1x16384_0_1)
          (dot_eq_logits (m ((c.tc : Thread nD τ).loc main_arg3)) (m ((c.tc : Thread nD τ).loc main_arg1)))),
        (h c).2.2⟩)
    (Cert.ReferenceIdeal.Value.run (F := Ideal) m ρ)

end Cert.ReferenceIdeal.RefValue

end
-- ==== Proof.LibRowOps.lean ====
/-
  Row-wise building blocks of a `keepdims` normalisation, each read at an entry, at exact arithmetic.

  A kernel that divides every row of an [a, b] block by the row's sum builds the divisor in three steps: the lane
  sum [a, b] → [a], the cast [a] → [a, 1] that restores the dropped axis as a unit axis, and the broadcast
  [a, 1] → [a, b] that repeats each row's sum along the row. Read at entry (p, c) the three steps compose to
  `Σₖ x(p, k)`. Beside them: a matrix product of an [m, K] block by an [n, K] block that contracts the two trailing
  axes (the right factor stored row-per-output-column), into a zero accumulator, read at entry (p, q) as
  `Σₖ left(p, k) · right(q, k)`.
-/
import Idealize.ShloMosaic.Lib.ValueIdx
import Idealize.ShloMosaic.Lib.Pipeline.Value
import Idealize.ShloMosaic.PureOps.Ideal.Laws

noncomputable section

namespace Cert.Lib.RowOps

open Idealize.ShloMosaic Idealize.ShloMosaic.TcCoe Idealize.SL.Sem Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` block over its second axis, read at row `p`, is the sum of the row's entries. -/
theorem multiReduction_add_lanes {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- The three steps composed: the row sum, kept as a unit axis and repeated along the row, read at `(p, c)`. -/
theorem rowSum_keepdims_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩) (p : Fin a) (c : Fin b) :
    broadcastTo ⟨2, ![a, b]⟩ (shapeCast ⟨2, ![a, 1]⟩ (multiReduction (F := Ideal) .add [1] ⟨1, ![a]⟩ src acc h hφ hacc) hc) hb (ix2 p c)
      = ∑ k : Fin b, src (ix2 p k) :=
  (broadcastTo_a1_ab_apply _ hb p c).trans ((shapeCast_a_a1_apply _ hc p 0).trans (multiReduction_add_lanes src acc h hφ hacc p))

/-- A TensorCore product of an m×K block by an n×K block contracting the two trailing axes, into a zero accumulator,
    read at entry (p, q): the sum over k of left (p, k) · right (q, k). The four hypotheses say where the product's
    dimension numbers send an output index and a contraction index: to (row, k) on the left and (column, k) on the
    right. -/
theorem matmul_nt_zero_ix2 {m K n : Nat} {φ₁ φ₂ : FTy} (D : DotDims ⟨2, ![m, K]⟩ ⟨2, ![n, K]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (i 1).val)
    (hr1 : ∀ (i : (⟨2, ![m, n]⟩ : Shape).Idx) (c : D.contr.Idx), (D.rhsIdx i c 1).val = (c ⟨0, by omega⟩).val)
    (lhs : FVec Ideal ⟨2, ![m, K]⟩ φ₁) (rhs : FVec Ideal ⟨2, ![n, K]⟩ φ₂) (p : Fin m) (q : Fin n) :
    matmul D none lhs rhs (constant (F := Ideal) ⟨2, ![m, n]⟩ .f32 0x00000000#32) (ix2 p q)
      = ∑ k : Fin K, lhs (ix2 p k) * rhs (ix2 q k) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Cert.Lib.RowOps

end
-- ==== Proof.KernelLogits.lean ====
/-
  The kernel's two output arrays after the region: each is the row of logits of its weight row and feature matrix.

  The grid has 16 points. At point t the body receives rows t·1024 … t·1024 + 1023 of each feature matrix (a
  1024 × 1024 block), the whole of each weight row, and writes columns t·1024 … t·1024 + 1023 of each output row (a
  1 × 1024 block). What it writes at column q of the block is the matrix product of the weight row with the feature
  block, contracting the trailing axis of both, into a zero accumulator: Σₖ w(0, k) · G(t·1024 + q, k). That is entry
  (0, t·1024 + q) of `logits w G`, so every written block is the corresponding block of that one row; the 16 blocks
  tile the row, so the array ends equal to it.
-/
import proofs.«105103_j15719580304442_2_alg».proof.Proof.Gen.KernelIdeal.Frame
import proofs.«105103_j15719580304442_2_alg».proof.Proof.RowSoftmax
import proofs.«105103_j15719580304442_2_alg».proof.Proof.LibRowOps
import Idealize.ShloMosaic.Lib.Pipeline.Value
import Idealize.ShloMosaic.Lib.ValueIdx
import Idealize.ShloMosaic.PureOps.Ideal.Laws

noncomputable section

namespace Cert.KernelIdeal.Logits

open Cert.KernelIdeal Cert.KernelIdeal.Gen Idealize.ShloMosaic Idealize.ShloMosaic.TcCoe Idealize.SL.Sem
open Idealize.ShloMosaic.ValueIdx Cert.RowSoftmax
open Idealize.ShloMosaic.Pipeline (Dat Cfg Window)

variable (m : (ℓ : Loc nD τ sig) → Buf (Elt Ideal) ℓ)

/-- The body's loads and stores all start at the origin of their buffers. -/
theorem origin : (![0, 0] : Fin 2 → Nat) = fun _ => 0 := funext fun a => by fin_cases a <;> rfl

/-- The grid has 16 points. -/
theorem point_lt (t : Fin cfg0.N) : t.val < 16 := lt_of_lt_of_eq t.isLt N_0

/-- Where each window's block sits at point t, decided over the grid: the feature blocks move down their matrices
    (block row t, block column 0), the weight rows stay put, the output blocks move along their rows (block column t). -/
theorem block_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-! ## The body's matrix product at an entry -/

/-- The body's product of a 1 × 1024 row with a 1024 × 1024 block contracts the trailing axis of both. -/
abbrev rowByBlock : DotDims S1x1024 S1024x1024 S1x1024 := dot_S1x1024_S1024x1024_S1x1024_1_1_0_0_n_n

/-- An output entry (z, q) reads the left factor on row z, -/
theorem left_row (i : S1x1024.Idx) (κ : rowByBlock.contr.Idx) : (rowByBlock.lhsIdx i κ 0).val = (i 0).val := by
  unfold DotDims.lhsIdx
  rw [dif_neg (show ¬(0 : Fin S1x1024.rank) ∈ rowByBlock.lhsBatch by decide),
    dif_pos (show (0 : Fin S1x1024.rank) ∈ rowByBlock.lhsNonContracting by decide)]
  rfl
/-- at the contraction index along the row; -/
theorem left_col (i : S1x1024.Idx) (κ : rowByBlock.contr.Idx) : (rowByBlock.lhsIdx i κ 1).val = (κ ⟨0, by decide⟩).val :=
  rowByBlock.lhsIdx_val_of_single rfl i κ
/-- and the right factor on row q, -/
theorem right_row (i : S1x1024.Idx) (κ : rowByBlock.contr.Idx) : (rowByBlock.rhsIdx i κ 0).val = (i 1).val := by
  unfold DotDims.rhsIdx
  rw [dif_neg (show ¬(0 : Fin S1024x1024.rank) ∈ rowByBlock.rhsBatch by decide),
    dif_pos (show (0 : Fin S1024x1024.rank) ∈ rowByBlock.rhsNonContracting by decide)]
  rfl
/-- at the contraction index along that row. -/
theorem right_col (i : S1x1024.Idx) (κ : rowByBlock.contr.Idx) : (rowByBlock.rhsIdx i κ 1).val = (κ ⟨0, by decide⟩).val :=
  rowByBlock.rhsIdx_val_of_single rfl i κ

/-- What the body stores into the first output block, at column q: the dot product of the weight row with row q of the
    feature block. (The product's precision label plays no part at exact arithmetic.) -/
theorem stored_first (g : FVec Ideal S1024x1024 .f32) (w : FVec Ideal S1x1024 .f32) (z : Fin 1) (q : Fin 1024) :
    k0_pay1 (F := Ideal) g w (ix2 z q) = ∑ k : Fin 1024, w (ix2 (0 : Fin 1) k) * g (ix2 q k) := by
  obtain rfl : z = 0 := Subsingleton.elim _ _
  show matmul rowByBlock none w g (constant (F := Ideal) S1x1024 .f32 0x00000000#32) (ix2 (0 : Fin 1) q) = _
  exact Cert.Lib.RowOps.matmul_nt_zero_ix2 (m := 1) (K := 1024) (n := 1024) rowByBlock rfl rfl
    left_row left_col right_row right_col w g 0 q

/-- The same for the second output block. -/
theorem stored_second (g : FVec Ideal S1024x1024 .f32) (w : FVec Ideal S1x1024 .f32) (z : Fin 1) (q : Fin 1024) :
    k0_pay2 (F := Ideal) g w (ix2 z q) = ∑ k : Fin 1024, w (ix2 (0 : Fin 1) k) * g (ix2 q k) := by
  obtain rfl : z = 0 := Subsingleton.elim _ _
  show matmul rowByBlock none w g (constant (F := Ideal) S1x1024 .f32 0x00000000#32) (ix2 (0 : Fin 1) q) = _
  exact Cert.Lib.RowOps.matmul_nt_zero_ix2 (m := 1) (K := 1024) (n := 1024) rowByBlock rfl rfl
    left_row left_col right_row right_col w g 0 q

/-! ## The first output row: the first weight row against the first feature matrix -/

/-- The weight row's block is the whole row at every point. -/
theorem weights_first (c : Dev nD) (t : Fin cfg0.N) (k : Fin 1024) :
    iblk m c 2 t (ix2 (0 : Fin 1) k) = V m c main_arg2 (ix2 (0 : Fin 1) k) := by
  show V m c main_arg2 (((cfg0.win 2).blk t).view.emb (ix2 (0 : Fin 1) k)) = _
  refine congrArg (V m c main_arg2) ?_
  obtain ⟨e00, e01, e10, e11, e20, e21, e30, e31, e40, e41, e50, e51⟩ := block_positions t
  funext a; apply Fin.ext
  match a with
  | ⟨0, _⟩ => show win0_2.index t (0 : Fin 2) * 1 + 1 * 0 = 0; omega
  | ⟨1, _⟩ => show win0_2.index t (1 : Fin 2) * 1024 + 1 * k.val = k.val; omega

/-- Row q of the feature block at point t is the row of the feature matrix that column q of the output block at point
    t belongs to (row t·1024 + q). -/
theorem feats_first (c : Dev nD) (t : Fin cfg0.N) (z : Fin 1) (q k : Fin 1024) :
    iblk m c 0 t (ix2 q k) = V m c main_arg0 (ix2 ((((cfg0.win 4).blk t).view.emb (ix2 z q)) 1) k) := by
  show V m c main_arg0 (((cfg0.win 0).blk t).view.emb (ix2 q k)) = _
  refine congrArg (V m c main_arg0) ?_
  obtain ⟨e00, e01, e10, e11, e20, e21, e30, e31, e40, e41, e50, e51⟩ := block_positions t
  funext a; apply Fin.ext
  match a with
  | ⟨0, _⟩ => show win0_0.index t (0 : Fin 2) * 1024 + 1 * q.val = win0_4.index t (1 : Fin 2) * 1024 + 1 * q.val; omega
  | ⟨1, _⟩ => show win0_0.index t (1 : Fin 2) * 1024 + 1 * k.val = k.val; omega

/-- What point t writes back into the first output row is block t of the logits of the first weight row and feature matrix. -/
theorem written_first (c : Dev nD) (t : Fin cfg0.N) :
    (dats m 0 c).flushed 4 t = ((cfg0.win 4).blk t).view.read (Elt Ideal) (logits (V m c main_arg2) (V m c main_arg0)) := by
  show (cfg0.win 4).cut (grid0.coords t) ((dats m 0 c).after 4 t) = _
  rw [after0_4]
  unfold out0_4
  rw [View.canon_unit_zero origin]
  simp only [View.ld_unit_zero (S := S1024x1024) origin, View.ld_unit_zero (S := S1x1024) origin]
  funext j
  obtain ⟨z, q, rfl⟩ : ∃ (z : Fin 1) (q : Fin 1024), j = ix2 z q := ⟨j 0, j 1, eq_ix2 j⟩
  show k0_pay1 (iblk m c 0 t) (iblk m c 2 t) (ix2 z q)
    = logits (V m c main_arg2) (V m c main_arg0) (((cfg0.win 4).blk t).view.emb (ix2 z q))
  refine (stored_first _ _ z q).trans (Finset.sum_congr rfl fun k _ => ?_)
  rw [weights_first m c t k, feats_first m c t z q k]

/-- An entry of the first output row lies in point t's block exactly when each coordinate lies in the block's range. -/
theorem mem_first (t : Fin cfg0.N) (i : S1x16384.Idx) :
    i ∈ ((cfg0.win 4).blk t).view.set ↔ ∀ a : Fin 2, win0_4.index t a * S1x1024.size a ≤ (i a).val
      ∧ (i a).val < win0_4.index t a * S1x1024.size a + S1x1024.size a := by
  show i ∈ ((View.whole main_v0_0).slice (win0_4.rect t)).set ↔ _
  rw [View.set_slice_whole, Rect.mem_set_unit]
  exact Iff.rfl

/-- Column s of the first output row is written at point s / 1024: the 16 blocks tile the row. -/
theorem covered_first (i : S1x16384.Idx) :
    ∃ t : Fin cfg0.N, (cfg0.win 4).flush t = true ∧ i ∈ ((cfg0.win 4).blk t).view.set := by
  have hi0 : (i 0).val < 1 := (i 0).isLt
  have hi1 : (i 1).val < 16384 := (i 1).isLt
  obtain ⟨t, ht⟩ : ∃ t : Fin cfg0.N, t.val = (i 1).val / 1024 :=
    ⟨⟨(i 1).val / 1024, lt_of_lt_of_eq (by omega : (i 1).val / 1024 < 16) N_0.symm⟩, rfl⟩
  obtain ⟨e00, e01, e10, e11, e20, e21, e30, e31, e40, e41, e50, e51⟩ := block_positions t
  refine ⟨t, flush0_4 t, ?_⟩
  rw [mem_first]
  intro a
  match a with
  | ⟨0, _⟩ =>
    show win0_4.index t (0 : Fin 2) * 1 ≤ (i 0).val ∧ (i 0).val < win0_4.index t (0 : Fin 2) * 1 + 1
    omega
  | ⟨1, _⟩ =>
    show win0_4.index t (1 : Fin 2) * 1024 ≤ (i 1).val ∧ (i 1).val < win0_4.index t (1 : Fin 2) * 1024 + 1024
    omega

/-- After the region the first output row holds the logits of the first weight row and feature matrix. -/
theorem array_first (c : Dev nD) :
    (dats m 0 c).arrAt 4 cfg0.N
      = logits (m ((c : Thread nD τ).loc main_arg2)) (m ((c : Thread nD τ).loc main_arg0)) :=
  (dats m 0 c).arrAt_eq_of_cover 4 (logits (V m c main_arg2) (V m c main_arg0)) (fun t _ => written_first m c t) covered_first

/-! ## The second output row: the second weight row against the second feature matrix -/

/-- The weight row's block is the whole row at every point. -/
theorem weights_second (c : Dev nD) (t : Fin cfg0.N) (k : Fin 1024) :
    iblk m c 3 t (ix2 (0 : Fin 1) k) = V m c main_arg3 (ix2 (0 : Fin 1) k) := by
  show V m c main_arg3 (((cfg0.win 3).blk t).view.emb (ix2 (0 : Fin 1) k)) = _
  refine congrArg (V m c main_arg3) ?_
  obtain ⟨e00, e01, e10, e11, e20, e21, e30, e31, e40, e41, e50, e51⟩ := block_positions t
  funext a; apply Fin.ext
  match a with
  | ⟨0, _⟩ => show win0_3.index t (0 : Fin 2) * 1 + 1 * 0 = 0; omega
  | ⟨1, _⟩ => show win0_3.index t (1 : Fin 2) * 1024 + 1 * k.val = k.val; omega

/-- Row q of the feature block at point t is the row of the feature matrix that column q of the output block at point
    t belongs to (row t·1024 + q). -/
theorem feats_second (c : Dev nD) (t : Fin cfg0.N) (z : Fin 1) (q k : Fin 1024) :
    iblk m c 1 t (ix2 q k) = V m c main_arg1 (ix2 ((((cfg0.win 5).blk t).view.emb (ix2 z q)) 1) k) := by
  show V m c main_arg1 (((cfg0.win 1).blk t).view.emb (ix2 q k)) = _
  refine congrArg (V m c main_arg1) ?_
  obtain ⟨e00, e01, e10, e11, e20, e21, e30, e31, e40, e41, e50, e51⟩ := block_positions t
  funext a; apply Fin.ext
  match a with
  | ⟨0, _⟩ => show win0_1.index t (0 : Fin 2) * 1024 + 1 * q.val = win0_5.index t (1 : Fin 2) * 1024 + 1 * q.val; omega
  | ⟨1, _⟩ => show win0_1.index t (1 : Fin 2) * 1024 + 1 * k.val = k.val; omega

/-- What point t writes back into the second output row is block t of the logits of the second weight row and feature matrix. -/
theorem written_second (c : Dev nD) (t : Fin cfg0.N) :
    (dats m 0 c).flushed 5 t = ((cfg0.win 5).blk t).view.read (Elt Ideal) (logits (V m c main_arg3) (V m c main_arg1)) := by
  show (cfg0.win 5).cut (grid0.coords t) ((dats m 0 c).after 5 t) = _
  rw [after0_5]
  unfold out0_5
  rw [View.canon_unit_zero origin]
  simp only [View.ld_unit_zero (S := S1024x1024) origin, View.ld_unit_zero (S := S1x1024) origin]
  funext j
  obtain ⟨z, q, rfl⟩ : ∃ (z : Fin 1) (q : Fin 1024), j = ix2 z q := ⟨j 0, j 1, eq_ix2 j⟩
  show k0_pay2 (iblk m c 1 t) (iblk m c 3 t) (ix2 z q)
    = logits (V m c main_arg3) (V m c main_arg1) (((cfg0.win 5).blk t).view.emb (ix2 z q))
  refine (stored_second _ _ z q).trans (Finset.sum_congr rfl fun k _ => ?_)
  rw [weights_second m c t k, feats_second m c t z q k]

/-- An entry of the second output row lies in point t's block exactly when each coordinate lies in the block's range. -/
theorem mem_second (t : Fin cfg0.N) (i : S1x16384.Idx) :
    i ∈ ((cfg0.win 5).blk t).view.set ↔ ∀ a : Fin 2, win0_5.index t a * S1x1024.size a ≤ (i a).val
      ∧ (i a).val < win0_5.index t a * S1x1024.size a + S1x1024.size a := by
  show i ∈ ((View.whole main_v0_1).slice (win0_5.rect t)).set ↔ _
  rw [View.set_slice_whole, Rect.mem_set_unit]
  exact Iff.rfl

/-- Column s of the second output row is written at point s / 1024: the 16 blocks tile the row. -/
theorem covered_second (i : S1x16384.Idx) :
    ∃ t : Fin cfg0.N, (cfg0.win 5).flush t = true ∧ i ∈ ((cfg0.win 5).blk t).view.set := by
  have hi0 : (i 0).val < 1 := (i 0).isLt
  have hi1 : (i 1).val < 16384 := (i 1).isLt
  obtain ⟨t, ht⟩ : ∃ t : Fin cfg0.N, t.val = (i 1).val / 1024 :=
    ⟨⟨(i 1).val / 1024, lt_of_lt_of_eq (by omega : (i 1).val / 1024 < 16) N_0.symm⟩, rfl⟩
  obtain ⟨e00, e01, e10, e11, e20, e21, e30, e31, e40, e41, e50, e51⟩ := block_positions t
  refine ⟨t, flush0_5 t, ?_⟩
  rw [mem_second]
  intro a
  match a with
  | ⟨0, _⟩ =>
    show win0_5.index t (0 : Fin 2) * 1 ≤ (i 0).val ∧ (i 0).val < win0_5.index t (0 : Fin 2) * 1 + 1
    omega
  | ⟨1, _⟩ =>
    show win0_5.index t (1 : Fin 2) * 1024 ≤ (i 1).val ∧ (i 1).val < win0_5.index t (1 : Fin 2) * 1024 + 1024
    omega

/-- After the region the second output row holds the logits of the second weight row and feature matrix. -/
theorem array_second (c : Dev nD) :
    (dats m 0 c).arrAt 5 cfg0.N
      = logits (m ((c : Thread nD τ).loc main_arg3)) (m ((c : Thread nD τ).loc main_arg1)) :=
  (dats m 0 c).arrAt_eq_of_cover 5 (logits (V m c main_arg3) (V m c main_arg1)) (fun t _ => written_second m c t) covered_second

end Cert.KernelIdeal.Logits

end
-- ==== Proof.KernelRun.lean ====
/-
  The kernel program's run, read: both results are the shifted softmax of the logits.

  After the region the two output rows hold the logits (`array_first`, `array_second`). The host lines that follow
  read nothing else of the region: they take the row's maximum, subtract it, exponentiate, sum and divide — the shifted
  softmax of the row, applied to each output row in turn. So the program's first result is the softmax of the first
  row of logits and its second result the softmax of the second; the argument arrays are read only and end as they
  began.
-/
import proofs.«105103_j15719580304442_2_alg».proof.Proof.KernelLogits
import Idealize.ShloMosaic.Lib.StableHlo.Run

noncomputable section

namespace Cert.KernelIdeal.Softmax

open Cert.KernelIdeal Cert.KernelIdeal.Gen Idealize.ShloMosaic Idealize.ShloMosaic.TcCoe Idealize.SL.Sem
open Idealize.ShloMosaic.ValueIdx Cert.RowSoftmax Cert.KernelIdeal.Logits
open Idealize.ShloMosaic.Pipeline (Dat Cfg Window)

variable (m : (ℓ : Loc nD τ sig) → Buf (Elt Ideal) ℓ) (ρ : Dev nD → PrngReg)

/-- The first result after the host lines: the softmax of what the region left in the first output row, which is the
    first row of logits. -/
theorem result_first (c : Dev nD) :
    Pipeline.afterTail₀ cfgs (dats m) 0 (V0 m) [hostOps1] c main_v11
      = softmaxRow reducesTo_S1x16384_S1_d1 h_S_ bcast_S_S1 bcast_S1_S1x1_0 bcast_S1x1_S1x16384_0_1
          (logits (m ((c : Thread nD τ).loc main_arg2)) (m ((c : Thread nD τ).loc main_arg0))) := by
  unfold Pipeline.afterTail₀
  show StableHlo.after hostOps1 _ (Proc.devRef .tc main_v11) = _
  after_results
  exact congrArg (softmaxRow reducesTo_S1x16384_S1_d1 h_S_ bcast_S_S1 bcast_S1_S1x1_0 bcast_S1x1_S1x16384_0_1)
    ((Pipeline.withArrays_arr (cfgs 0).spec launch0.win.arr_inj c (V0 m c) (fun w => (dats m 0 c).arrAt w (cfgs 0).N) 4).trans
      (array_first m c))

/-- The second result after the host lines: the softmax of the second row of logits. -/
theorem result_second (c : Dev nD) :
    Pipeline.afterTail₀ cfgs (dats m) 0 (V0 m) [hostOps1] c main_v22
      = softmaxRow reducesTo_S1x16384_S1_d1 h_S_ bcast_S_S1 bcast_S1_S1x1_0 bcast_S1x1_S1x16384_0_1
          (logits (m ((c : Thread nD τ).loc main_arg3)) (m ((c : Thread nD τ).loc main_arg1))) := by
  unfold Pipeline.afterTail₀
  show StableHlo.after hostOps1 _ (Proc.devRef .tc main_v22) = _
  after_results
  exact congrArg (softmaxRow reducesTo_S1x16384_S1_d1 h_S_ bcast_S_S1 bcast_S1_S1x1_0 bcast_S1x1_S1x16384_0_1)
    ((Pipeline.withArrays_arr (cfgs 0).spec launch0.win.arr_inj c (V0 m c) (fun w => (dats m 0 c).arrAt w (cfgs 0).N) 5).trans
      (array_second m c))

/-- The two result buffers are unscoped and are no window's array, so the run's post states them as the host lines
    leave them. -/
theorem result_first_rest : main_v11 ∈ Pipeline.restRefs sig (cfgs 0).spec :=
  Pipeline.mem_restRefs_of main_v11 rfl (fun w => by fin_cases w <;> decide)
theorem result_second_rest : main_v22 ∈ Pipeline.restRefs sig (cfgs 0).spec :=
  Pipeline.mem_restRefs_of main_v22 rfl (fun w => by fin_cases w <;> decide)

/-- The kernel program's run: every weakly fair execution terminates without a fault, with each result at the softmax
    of its row of logits and the argument arrays unchanged. -/
theorem run : θ_run defs (onTc (τ := τ) (main (F := Ideal))) ⟨m, fun _ => 0, ρ⟩ fun r => ∀ c : Dev nD,
      r.2.mem ((c.tc : Thread nD τ).loc main_v11)
          = softmaxRow reducesTo_S1x16384_S1_d1 h_S_ bcast_S_S1 bcast_S1_S1x1_0 bcast_S1x1_S1x16384_0_1
              (logits (m ((c.tc : Thread nD τ).loc main_arg2)) (m ((c.tc : Thread nD τ).loc main_arg0)))
      ∧ r.2.mem ((c.tc : Thread nD τ).loc main_v22)
          = softmaxRow reducesTo_S1x16384_S1_d1 h_S_ bcast_S_S1 bcast_S1_S1x1_0 bcast_S1x1_S1x16384_0_1
              (logits (m ((c.tc : Thread nD τ).loc main_arg3)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨((h c).2 main_v11 result_first_rest).trans (result_first m c),
        ((h c).2 main_v22 result_second_rest).trans (result_second m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c))),
        ((h c).1 3).trans (((dats m 0 c).arrAt_in 3 rfl _).trans ((A_eq m c 3).trans (V_main_arg3 m c)))⟩)
    (run_main m ρ)

end Cert.KernelIdeal.Softmax

end
-- ==== Proof.lean ====
/-
  Two matrix–vector products followed by a softmax, tiled against untiled.

  The kernel program computes two rows of logits on the TensorCore, p₁ = w₁ · G₁ᵀ and p₂ = w₂ · G₂ᵀ (w a 1 × 1024 weight
  row, G a 16384 × 1024 feature matrix), sixteen blocks of 1024 columns at a time: at grid point t the body multiplies
  the weight row by rows t·1024 … t·1024 + 1023 of the feature matrix, into a zero accumulator, and writes the 1024
  dot products back as block t of the output row. The host then takes the shifted softmax of each row. The reference
  computes each row of logits by ONE host matrix product over the whole feature matrix, and takes the same softmax.

  At exact arithmetic both programs therefore compute softmaxRow (logits w G) for each pair (`Proof/RowSoftmax.lean`):
  entry (0, s) of the logits is Σₖ w(0, k) · G(s, k) on both sides — for the kernel because column s is written at
  point s / 1024 from row s of the matrix and the sixteen blocks tile the row (`Proof/KernelLogits.lean`), for the
  reference by reading its product at an entry (`Proof/RefLogits.lean`) — and the softmax that follows is the same
  composition of host operations applied to the same row (`Proof/KernelRun.lean`), so it is never opened. No law of
  arithmetic is needed beyond naming the two sums the same way; in particular nothing depends on the inputs being
  finite. The idealized kernel is the kernel's own text read at exact arithmetic (no operation of it was rewritten), so
  `preserves` is trivial; the three frames are the generated frame runs and the reference's run with its results
  dropped.
-/
import proofs.«105103_j15719580304442_2_alg».proof.Defs
import proofs.«105103_j15719580304442_2_alg».proof.Proof.Gen.Kernel
import proofs.«105103_j15719580304442_2_alg».proof.Proof.Gen.Kernel.Skeleton
import proofs.«105103_j15719580304442_2_alg».proof.Proof.Gen.Kernel.Launch
import proofs.«105103_j15719580304442_2_alg».proof.Proof.Gen.Kernel.Points
import proofs.«105103_j15719580304442_2_alg».proof.Proof.Gen.Kernel.Frame
import proofs.«105103_j15719580304442_2_alg».proof.Proof.Gen.KernelIdeal
import proofs.«105103_j15719580304442_2_alg».proof.Proof.Gen.KernelIdeal.Skeleton
import proofs.«105103_j15719580304442_2_alg».proof.Proof.Gen.KernelIdeal.Launch
import proofs.«105103_j15719580304442_2_alg».proof.Proof.Gen.KernelIdeal.Points
import proofs.«105103_j15719580304442_2_alg».proof.Proof.Gen.KernelIdeal.Frame
import proofs.«105103_j15719580304442_2_alg».proof.Proof.Gen.ReferenceIdeal
import proofs.«105103_j15719580304442_2_alg».proof.Proof.Gen.Pre_finite_inputs
import proofs.«105103_j15719580304442_2_alg».proof.Proof.Gen.ReferenceIdeal.Run
import proofs.«105103_j15719580304442_2_alg».proof.Proof.Gen.ReferenceIdeal.Read
import proofs.«105103_j15719580304442_2_alg».proof.Proof.RefLogits
import proofs.«105103_j15719580304442_2_alg».proof.Proof.KernelRun
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at exact arithmetic. -/
theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.RefValue.run m ρ)

/-- No operation of the kernel was rewritten in its idealization: there is nothing to preserve. -/
theorem preserves : Cert.preserves_Kernel_KernelIdeal := trivial

/-- From memories that agree on the four arguments, the kernel program ends with each result at the softmax of its row
    of logits, and so does the reference: the same function of the same arrays. -/
theorem algebraic : Cert.algebraic_KernelIdeal_ReferenceIdeal := by
  intro m ρ m' ρ' _ hagree
  refine ⟨_, _, Cert.KernelIdeal.Softmax.run m ρ, ?_⟩
  refine (θ_run Cert.ReferenceIdeal.defs _ _).mono (fun r h c => ?_) (Cert.ReferenceIdeal.RefValue.run m' ρ')
  obtain ⟨h0, h1, h2, h3⟩ := hagree c
  refine ⟨(h c).1.trans ?_, (h c).2.1.trans ?_, (h c).2.2⟩
  · rw [h2, h0]
  · rw [h3, h1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
